-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8x2048x256 .f32) (main_arg1 : FVec F S256x256 .f32) (main_arg2 : FVec F S256x256 .f32) (main_arg3 : FVec F S256x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8x2048x256 : Shape := ⟨3, ![8, 2048, 256]⟩
abbrev S256x256 : Shape := ⟨2, ![256, 256]⟩
abbrev S1x2048x256 : Shape := ⟨3, ![1, 2048, 256]⟩
abbrev S1x1024x256 : Shape := ⟨3, ![1, 1024, 256]⟩
abbrev S2048x256 : Shape := ⟨2, ![2048, 256]⟩
abbrev S1024x256 : Shape := ⟨2, ![1024, 256]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S1x1024x256, .f32⟩
  | .local _ .vmem, ⟨6, _⟩ => ⟨S1x1024x256, .f32⟩
  | .local _ .vmem, ⟨7, _⟩ => ⟨S2048x256, .f32⟩
  | .local _ .vmem, ⟨8, _⟩ => ⟨S2048x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 3 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x256_S256x256_0_0 : ∀ a, (![0, 0] : Fin 2 → Nat) a + S256x256.size a ≤ S256x256.size a
  h_S256x256 : 0 < S256x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  packedbf16_S2048x256_S2048x256_0_0 : (Rect.unit (s := S2048x256) ![0, 0] S2048x256.size inb_S2048x256_S2048x256_0_0).PackedRows (EltTy.packing .bf16)
  h_S1x1024x256 : 0 < S1x1024x256.numel
  shapeCasts_S1x1024x256_S1024x256 : S1x1024x256.ShapeCasts S1024x256
  reduces_S1024x2048_S1024 : S1024x2048.Reduces [1] S1024
  shapeCasts_S1024_S1024x1 : S1024.ShapeCasts S1024x1
  broadcasts_S1024x1_S1024x2048 : S1024x1.Broadcasts S1024x2048
  inb_S1x1024x256_S1x1024x256_0_0_0 : ∀ a, (![0, 0, 0] : Fin 3 → Nat) a + S1x1024x256.size a ≤ S1x1024x256.size a
  shapeCasts_S1024x256_S1x1024x256 : S1024x256.ShapeCasts S1x1024x256
  dot_S2048x256_S256x256_S2048x256_1_0_0_1_n_n_wf : DotDims.WF S2048x256 S256x256 S2048x256 [1] [0] [0] [1] [] []
  dot_S1024x256_S256x256_S1024x256_1_0_0_1_n_n_wf : DotDims.WF S1024x256 S256x256 S1024x256 [1] [0] [0] [1] [] []
  dot_S1024x256_S2048x256_S1024x2048_1_1_0_0_n_n_wf : DotDims.WF S1024x256 S2048x256 S1024x2048 [1] [1] [0] [0] [] []
  dot_S1024x2048_S2048x256_S1024x256_1_0_0_1_n_n_wf : DotDims.WF S1024x2048 S2048x256 S1024x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x2048x256.size a
  hwx0_4 : ∀ i : grid0.Coords, EltTy.bits .f32 = 32 ∨ (Rect.block (s := S8x2048x256) S1x1024x256.size (cc0_transform_4 i) (hinb0_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S256x256 : Shape := ⟨2, ![256, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S8x2048x2048, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x256_S256x256_S8x2048x256_2_0_01_1_n_n_wf : DotDims.WF S8x2048x256 S256x256 S8x2048x256 [2] [0] [0, 1] [1] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.Pieces.lean ====
/-
  What one grid point of the fused attention kernel leaves behind, as values.

  At an even point (the first query tile of a batch) the body projects the whole batch block `x` by `Wk` and by `Wv`,
  stores the two products in the key and value scratch buffers, reads them back, and stores the attended query tile:
  the key scratch ends at the key product, the value scratch at the value product, and the output block at the
  attention of the query tile (the rows of `x` at the point's row offset) against exactly those two products.
  At an odd point nothing is stored into the scratch buffers, and the output block is the attention of the query tile
  against whatever the two scratch buffers hold.
-/
import proofs.«150655_j79534204387962_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The query tile of a batch block: its 1024 rows from the point's row offset on. -/
abbrev qtile (i : grid0.Coords) (x0 : Vec F S1x2048x256 .f32) : Vec F S1x1024x256 .f32 :=
  View.ld x0 (Rect.unit (s := S1x2048x256) (k0_off1 i) S1x1024x256.size (k0_off1_inb i))

/-- Even point: the key scratch ends at the key product of the batch block. -/
theorem kscr_A (c : Dev nD) (i : grid0.Coords) (a2 : Memref sig .tc .vmem S1x2048x256 .f32) (h2 : a2.IsWhole) (a3 : Memref sig .tc .vmem S256x256 .f32) (h3 : a3.IsWhole) (a4 : Memref sig .tc .vmem S256x256 .f32) (h4 : a4.IsWhole) (a5 : Memref sig .tc .vmem S256x256 .f32) (h5 : a5.IsWhole) (a6 : Memref sig .tc .vmem S1x1024x256 .f32) (h6 : a6.IsWhole) (a7 : Memref sig .tc .vmem S2048x256 .f32) (h7 : a7.IsWhole) (a8 : Memref sig .tc .vmem S2048x256 .bf16) (h8 : a8.IsWhole) (hc0 : cond0_0 i) (x0 : Vec F S1x2048x256 .f32) (x1 : Vec F S256x256 .f32) (x2 : Vec F S256x256 .f32) (x3 : Vec F S256x256 .f32) :
    sout0_A_0 c i a2 h2 a3 h3 a4 h4 a5 h5 a6 h6 a7 h7 a8 h8 hc0 x0 x1 x2 x3 = k0_pay2 x0 x2 := by
  unfold sout0_A_0
  rw [View.read_writes_eq_canon _ _ _ (scover0_A_0 c i a2 h2 a3 h3 a4 h4 a5 h5 a6 h6 a7 h7 a8 h8 hc0 x0 x1 x2 x3)]
  unfold kernelRun0_A
  dsimp only
  sl_unfold_words
  rw [View.canon_unit_zero (S := S2048x256) hz2]
  simp only [View.readAt_eq_ld, h2.read_unread, h4.read_unread, View.ld_unit_zero (S := S1x2048x256) hz3,
    View.ld_unit_zero (S := S256x256) hz2]

/-- Even point: the value scratch ends at the value product of the batch block. -/
theorem vscr_A (c : Dev nD) (i : grid0.Coords) (a2 : Memref sig .tc .vmem S1x2048x256 .f32) (h2 : a2.IsWhole) (a3 : Memref sig .tc .vmem S256x256 .f32) (h3 : a3.IsWhole) (a4 : Memref sig .tc .vmem S256x256 .f32) (h4 : a4.IsWhole) (a5 : Memref sig .tc .vmem S256x256 .f32) (h5 : a5.IsWhole) (a6 : Memref sig .tc .vmem S1x1024x256 .f32) (h6 : a6.IsWhole) (a7 : Memref sig .tc .vmem S2048x256 .f32) (h7 : a7.IsWhole) (a8 : Memref sig .tc .vmem S2048x256 .bf16) (h8 : a8.IsWhole) (hc0 : cond0_0 i) (x0 : Vec F S1x2048x256 .f32) (x1 : Vec F S256x256 .f32) (x2 : Vec F S256x256 .f32) (x3 : Vec F S256x256 .f32) :
    sout0_A_1 c i a2 h2 a3 h3 a4 h4 a5 h5 a6 h6 a7 h7 a8 h8 hc0 x0 x1 x2 x3 = k0_pay3 x0 x3 := by
  unfold sout0_A_1
  rw [View.read_writes_eq_canon _ _ _ (scover0_A_1 c i a2 h2 a3 h3 a4 h4 a5 h5 a6 h6 a7 h7 a8 h8 hc0 x0 x1 x2 x3)]
  unfold kernelRun0_A
  dsimp only
  sl_unfold_words
  rw [View.canon_unit_zero (S := S2048x256) hz2]
  simp only [View.readAt_eq_ld, h2.read_unread, h5.read_unread, View.ld_unit_zero (S := S1x2048x256) hz3,
    View.ld_unit_zero (S := S256x256) hz2]

/-- Even point: the output block is the attention of the query tile against the two products just stored. -/
theorem out_A (c : Dev nD) (i : grid0.Coords) (a2 : Memref sig .tc .vmem S1x2048x256 .f32) (h2 : a2.IsWhole) (a3 : Memref sig .tc .vmem S256x256 .f32) (h3 : a3.IsWhole) (a4 : Memref sig .tc .vmem S256x256 .f32) (h4 : a4.IsWhole) (a5 : Memref sig .tc .vmem S256x256 .f32) (h5 : a5.IsWhole) (a6 : Memref sig .tc .vmem S1x1024x256 .f32) (h6 : a6.IsWhole) (a7 : Memref sig .tc .vmem S2048x256 .f32) (h7 : a7.IsWhole) (a8 : Memref sig .tc .vmem S2048x256 .bf16) (h8 : a8.IsWhole) (hc0 : cond0_0 i) (x0 : Vec F S1x2048x256 .f32) (x1 : Vec F S256x256 .f32) (x2 : Vec F S256x256 .f32) (x3 : Vec F S256x256 .f32) :
    out0_A_4 c i a2 h2 a3 h3 a4 h4 a5 h5 a6 h6 a7 h7 a8 h8 hc0 x0 x1 x2 x3 = k0_pay4 (qtile i x0) x1 (k0_pay2 x0 x2) (k0_pay3 x0 x3) := by
  unfold out0_A_4
  rw [View.read_writes_eq_canon _ _ _ (cover0_A_4 c i a2 h2 a3 h3 a4 h4 a5 h5 a6 h6 a7 h7 a8 h8 hc0 x0 x1 x2 x3)]
  unfold kernelRun0_A
  dsimp only
  sl_unfold_words
  rw [View.canon_unit_zero (S := S1x1024x256) hz3]
  rw [View.readCov_unit_zero (S := S2048x256) _ hz2, View.readCov_unit_zero (S := S2048x256) _ hz2]
  simp only [View.readAt_eq_ld, h2.read_unread, h3.read_unread, h4.read_unread, h5.read_unread,
    View.ld_unit_zero (S := S1x2048x256) hz3, View.ld_unit_zero (S := S256x256) hz2]
  rfl

/-- Odd point: the output block is the attention of the query tile against what the scratch buffers hold. -/
theorem out_B (c : Dev nD) (i : grid0.Coords) (a2 : Memref sig .tc .vmem S1x2048x256 .f32) (h2 : a2.IsWhole) (a3 : Memref sig .tc .vmem S256x256 .f32) (h3 : a3.IsWhole) (a4 : Memref sig .tc .vmem S256x256 .f32) (h4 : a4.IsWhole) (a5 : Memref sig .tc .vmem S256x256 .f32) (h5 : a5.IsWhole) (a6 : Memref sig .tc .vmem S1x1024x256 .f32) (h6 : a6.IsWhole) (a7 : Memref sig .tc .vmem S2048x256 .f32) (h7 : a7.IsWhole) (a8 : Memref sig .tc .vmem S2048x256 .bf16) (h8 : a8.IsWhole) (hc0 : ¬cond0_0 i) (x0 : Vec F S1x2048x256 .f32) (x1 : Vec F S256x256 .f32) (x2 : Vec F S256x256 .f32) (x3 : Vec F S256x256 .f32) (xs0 : Vec F S2048x256 .f32) (xs1 : Vec F S2048x256 .bf16) :
    out0_B_4 c i a2 h2 a3 h3 a4 h4 a5 h5 a6 h6 a7 h7 a8 h8 hc0 x0 x1 x2 x3 xs0 xs1 = k0_pay4 (qtile i x0) x1 xs0 xs1 := by
  unfold out0_B_4
  rw [View.read_writes_eq_canon _ _ _ (cover0_B_4 c i a2 h2 a3 h3 a4 h4 a5 h5 a6 h6 a7 h7 a8 h8 hc0 x0 x1 x2 x3 xs0 xs1)]
  unfold kernelRun0_B
  dsimp only
  sl_unfold_words
  rw [View.canon_unit_zero (S := S1x1024x256) hz3]
  simp only [View.readAt_eq_ld, h2.read_unread, h3.read_unread, h7.read_unread, h8.read_unread,
    View.ld_unit_zero (S := S2048x256) hz2, View.ld_unit_zero (S := S256x256) hz2]
  rfl

end Cert.KernelIdeal.Pieces

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibLeadAxis.lean ====
/-
  Layout steps around a leading axis, read at an index, and a sum along the leading axis.

  A block `[1, A, B]` viewed as `[A, B]` reads `(0, a, b)` at `(a, b)`, and a value `[A, B]` stored as a block
  `[1, A, B]` reads `(a, b)` at `(0, a, b)`. A value `[A, C]` recast as `[A, 1, C]` reads `(a, c)` at `(a, 0, c)`, and
  `[A, 1, C]` broadcast along its middle axis to `[A, R, C]` reads `(a, 0, c)` at every `(a, r, c)`. Over the extended
  reals the sum of an array `[E, R, C]` along its leading axis, from the zero word, is at `(r, c)` the plain sum over
  `e` of the entries `(e, r, c)`. All extents are arbitrary.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibLeadAxis

open Idealize.ShloMosaic Idealize.ShloMosaic.ValueIdx

/-- A block `[1, A, B]` viewed `[A, B]` reads `(0, a, b)` at `(a, b)`. -/
theorem cast_drop_apply {A B : Nat} {α : Type} (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 (0 : Fin 1) a b) := by
  refine shapeCast_apply v h _ _ ?_
  rw [Shape.rowMajor_val_three, Shape.rowMajor_val_two]
  show (0 * A + a.val) * B + b.val = a.val * B + b.val
  rw [Nat.zero_mul, Nat.zero_add]

/-- A value `[A, B]` stored as a block `[1, A, B]` reads `(a, b)` at `(0, a, b)`. -/
theorem cast_add_apply {A B : Nat} {α : Type} (v : (⟨2, ![A, B]⟩ : Shape).Idx → α)
    (h : (⟨2, ![A, B]⟩ : Shape).ShapeCasts ⟨3, ![1, A, B]⟩) (a : Fin A) (b : Fin B) :
    shapeCast ⟨3, ![1, A, B]⟩ v h (ix3 (0 : Fin 1) a b) = v (ix2 a b) := by
  refine shapeCast_apply v h _ _ ?_
  rw [Shape.rowMajor_val_three, Shape.rowMajor_val_two]
  show a.val * B + b.val = (0 * A + a.val) * B + b.val
  rw [Nat.zero_mul, Nat.zero_add]

/-- `[A, C]` recast as `[A, 1, C]` reads `(a, c)` at `(a, 0, c)`. -/
theorem cast_mid_apply {A C : Nat} {α : Type} (v : (⟨2, ![A, C]⟩ : Shape).Idx → α)
    (h : (⟨2, ![A, C]⟩ : Shape).ShapeCasts ⟨3, ![A, 1, C]⟩) (a : Fin A) (c : Fin C) :
    shapeCast ⟨3, ![A, 1, C]⟩ v h (ix3 a (0 : Fin 1) c) = v (ix2 a c) := by
  refine shapeCast_apply v h _ _ ?_
  rw [Shape.rowMajor_val_three, Shape.rowMajor_val_two]
  show a.val * C + c.val = (a.val * 1 + 0) * C + c.val
  rw [Nat.mul_one, Nat.add_zero]

/-- `[A, 1, C]` broadcast along the middle axis to `[A, R, C]` reads `(a, 0, c)` at every `(a, r, c)`. -/
theorem broadcast_mid_apply {A R C : Nat} {α : Type} (v : (⟨3, ![A, 1, C]⟩ : Shape).Idx → α)
    (h : (⟨3, ![A, 1, C]⟩ : Shape).Broadcasts ⟨3, ![A, R, C]⟩) (a : Fin A) (r : Fin R) (c : Fin C) :
    broadcastTo ⟨3, ![A, R, C]⟩ v h (ix3 a r c) = v (ix3 a (0 : Fin 1) c) := by
  refine broadcastTo_apply v h _ _ fun k => ?_
  match k with
  | ⟨0, _⟩ =>
    show a.val = if A = 1 then 0 else a.val
    split
    · have := a.isLt; omega
    · rfl
  | ⟨1, _⟩ =>
    show 0 = if (1 : Nat) = 1 then 0 else r.val
    rw [if_pos rfl]
  | ⟨2, _⟩ =>
    show c.val = if C = 1 then 0 else c.val
    split
    · have := c.isLt; omega
    · rfl

/-- The reduced index `(r, c)` with coordinate `e` put back on the leading axis is `(e, r, c)`. -/
theorem lift_lead {E R C : Nat} (h : (⟨3, ![E, R, C]⟩ : Shape).Reduces [0] (⟨2, ![R, C]⟩ : Shape)) (r : Fin R) (c : Fin C)
    (e : Fin ((⟨3, ![E, R, C]⟩ : Shape).size 0)) : h.lift (ix2 r c) e = ix3 (⟨e.val, e.isLt⟩ : Fin E) r c := by
  funext k; apply Fin.ext
  fin_cases k <;> rfl

/-- A sum along the leading axis of `[E, R, C]`, from the zero word, at `(r, c)`. -/
theorem sum_lead_apply {E R C : Nat} (src : FVec Ideal ⟨3, ![E, R, C]⟩ .f32)
    (h : (⟨3, ![E, R, C]⟩ : Shape).Reduces [0] (⟨2, ![R, C]⟩ : Shape)) (hφ : FKind.Formats .f32)
    (hacc : (0x00000000#32 : BitVec 32) = FKind.add.neutral .f32 hφ) (r : Fin R) (c : Fin C) :
    multiReduction .add [0] (⟨2, ![R, C]⟩ : Shape) src 0x00000000#32 h hφ hacc (ix2 r c) = ∑ e : Fin E, src (ix3 e r c) := by
  refine (Ideal.multiReduction_add_single src _ h hφ hacc (ix2 r c)).trans ?_
  exact Finset.sum_congr rfl fun e _ => congrArg src (lift_lead h r c e)

end Cert.LibLeadAxis

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibDotForms.lean ====
/-
  Two matrix products of a kernel read entry by entry over the extended reals, whatever precision the product asks for.

  Over the extended reals a product's precision attribute changes nothing. For a left operand [M, K]:
    * against a right operand [K, N] contracted on its first axis, entry (p, q) of the product accumulated into the
      zero splat is the sum over k of x[p, k] · w[k, q]                                   (`matmul_plain_prec`);
    * against a right operand [N, K] contracted on its last axis (a product with the transpose, no transpose
      materialised), entry (p, q) is the sum over k of x[p, k] · w[q, k]                   (`matmul_transposed_prec`).
  Only `0 + s = s` and a re-indexing of the sum are used: nothing here needs finiteness.
-/
import Idealize.ShloMosaic.Lib.ValueIdx
import Idealize.ShloMosaic.PureOps.Ideal.Laws
import proofs.«150655_j79534204387962_2_alg».proof.Proof.LibDotRows

noncomputable section

namespace Cert.LibDotForms

open Idealize.ShloMosaic Idealize.ShloMosaic.ValueIdx

variable {M K N : Nat} {φ₁ φ₂ : FTy}

/-- Entry (p, q) of a kernel's product x · w into the zero splat, at any precision. -/
theorem matmul_plain_prec (prec : Option ContractPrecision) (x : FVec Ideal ⟨2, ![M, K]⟩ φ₁) (w : FVec Ideal ⟨2, ![K, N]⟩ φ₂)
    (p : Fin M) (q : Fin N) :
    matmul (F := Ideal) (DotDims.plain M K N) prec x w (constant ⟨2, ![M, N]⟩ .f32 0x00000000#32) (ix2 p q)
      = ∑ k : Fin K, x (ix2 p k) * w (ix2 k q) :=
  Cert.Lib.DotRows.matmul_plain_apply x w p q

/-- With the right operand contracted on its last axis, the left operand's index at (p, q) and position k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => rfl
  | ⟨1, _⟩ => exact ((DotDims.transposedRhs M K N).lhsIdx_val_of_single rfl _ _).trans hk

/-- … and the right operand's index is (q, k). -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => rfl
  | ⟨1, _⟩ => exact ((DotDims.transposedRhs M K N).rhsIdx_val_of_single rfl _ _).trans hk

/-- Entry (p, q) of a kernel's product of x with the transpose of w, into the zero splat, at any precision. -/
theorem matmul_transposed_prec (prec : Option ContractPrecision) (x : FVec Ideal ⟨2, ![M, K]⟩ φ₁) (w : FVec Ideal ⟨2, ![N, K]⟩ φ₂)
    (p : Fin M) (q : Fin N) :
    matmul (F := Ideal) (DotDims.transposedRhs M K N) prec x w (constant ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  exact Finset.sum_congr rfl fun k _ => by rw [transposed_lhsIdx, transposed_rhsIdx]

end Cert.LibDotForms

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibSoftmaxRow.lean ====
/-
  A softmax-weighted average of one row, in two arrangements.

  For scores `S k` and values `V k` over `n ≥ 1` keys, let `M` be the maximum of the scores (folded from -∞),
  `e k = exp (S k - M)` and `l = Σ_k e k`. One arrangement divides first and sums afterwards,
      Σ_k (e k / l) · V k ,
  the other sums first and divides once,
      (Σ_k e k · V k) / l .
  When every score and every value is a real number the maximum is a real number, every `e k` is a positive real and
  `l > 0`, so the quotient by `l` is the product with the real `1 / l`, which distributes over the finite sum: the two
  arrangements agree. (Over the extended reals in general they do not: the product does not distribute over a sum that
  mixes +∞ and -∞.)
-/
import Mathlib
import Idealize.ShloMosaic.PureOps.Ideal
import proofs.«150655_j79534204387962_2_alg».proof.Proof.LibRealSum

noncomputable section

open scoped BigOperators

namespace Cert.LibSoftmaxRow

open Idealize.ShloMosaic Cert.LibRealSum

variable {n : ℕ}

/-- The f32 word `0xFF800000` denotes -∞. -/
theorem ofBits_negInf : Ideal.ofBits .f32 0xFF800000#32 = ⊥ := by simp [Ideal.ofBits, Ideal.ieee]

/-- -∞ is the identity of `max`. -/
theorem max_negInf (y : EReal) : max (Ideal.ofBits .f32 0xFF800000#32) y = y := by
  rw [ofBits_negInf]; exact max_eq_right bot_le

/-- The maximum of `n` extended reals, folded from the f32 word of -∞. -/
def rowMax (S : Fin n → EReal) : EReal :=
  (Finset.univ : Finset (Fin n)).fold max (Ideal.ofBits .f32 0xFF800000#32) S

/-- The maximum of a nonempty family of reals is a real. -/
theorem isReal_rowMax (hn : 0 < n) (S : Fin n → EReal) (hS : ∀ k, IsReal (S k)) : IsReal (rowMax S) := by
  have htop : rowMax S ≠ ⊤ := by
    unfold rowMax
    rw [← lt_top_iff_ne_top, Finset.fold_max_lt]
    refine ⟨by rw [ofBits_negInf]; exact bot_lt_top, fun k _ => ?_⟩
    obtain ⟨a, ha⟩ := hS k
    rw [ha]; exact EReal.coe_lt_top a
  have hbot : rowMax S ≠ ⊥ := by
    unfold rowMax
    rw [← bot_lt_iff_ne_bot, Finset.lt_fold_max]
    refine Or.inr ⟨⟨0, hn⟩, Finset.mem_univ _, ?_⟩
    obtain ⟨a, ha⟩ := hS ⟨0, hn⟩
    rw [ha]; exact EReal.bot_lt_coe a
  exact ⟨(rowMax S).toReal, (EReal.coe_toReal htop hbot).symm⟩

/-- Divide each weight by the normaliser, then average: `Σ_k (e k / l) · V k`. -/
def softmaxAvg (S V : Fin n → EReal) : EReal :=
  ∑ k, Ideal.div (Ideal.exp (S k - rowMax S)) (∑ i, Ideal.exp (S i - rowMax S)) * V k

/-- Average with the unnormalised weights, then divide once: `(Σ_k e k · V k) / l`. -/
def softmaxQuot (S V : Fin n → EReal) : EReal :=
  Ideal.div (∑ k, Ideal.exp (S k - rowMax S) * V k) (∑ k, Ideal.exp (S k - rowMax S))

/-- With real scores and real values over at least one key the two arrangements agree. -/
theorem softmaxQuot_eq_softmaxAvg (hn : 0 < n) (S V : Fin n → EReal) (hS : ∀ k, IsReal (S k)) (hV : ∀ k, IsReal (V k)) :
    softmaxQuot S V = softmaxAvg S V := by
  obtain ⟨M, hM⟩ := isReal_rowMax hn S hS
  choose s hs using hS
  choose v hv using hV
  unfold softmaxQuot softmaxAvg
  rw [hM]
  have hexp : ∀ k, Ideal.exp (S k - (M : EReal)) = ((Real.exp (s k - M) : ℝ) : EReal) := fun k => by
    rw [hs k, ← EReal.coe_sub, Ideal.exp_coe]
  have hpos : (∑ i, Real.exp (s i - M)) ≠ 0 :=
    (Finset.sum_pos (fun _ _ => Real.exp_pos _) ⟨⟨0, hn⟩, Finset.mem_univ _⟩).ne'
  simp only [hexp, hv, ← EReal.coe_mul, ← coe_finset_sum, Ideal.div_coe hpos]
  refine congrArg _ ?_
  rw [Finset.sum_mul]
  exact Finset.sum_congr rfl fun k _ => by ring

end Cert.LibSoftmaxRow

end
-- ==== Proof.Spec.lean ====
/-
  Single-head attention, one output entry at a time.

  For a query row `xq` (D numbers), key rows `xk k` (S rows of D numbers) and three D×E weight matrices, the entry `e`
  of the attended row is the softmax-weighted average over the keys `k` of the projected value `(xk k · wv) e`, the
  score of key `k` being the inner product of the projected query `xq · wq` with the projected key `xk k · wk` times
  the scale 1/16, and the weights normalised after subtracting the row's maximum score. The whole result array
  [8, 2048, 256] has at (b, s, e) that entry for the query row (b, s) against the keys of batch b.
-/
import Mathlib
import Idealize.ShloMosaic.PureOps.Ideal
import Idealize.ShloMosaic.Lib.ValueIdx
import proofs.«150655_j79534204387962_2_alg».proof.Proof.LibSoftmaxRow

noncomputable section

open scoped BigOperators

namespace Cert.Attn

open Idealize.ShloMosaic Idealize.ShloMosaic.ValueIdx Cert.LibSoftmaxRow

/-- The attention scale: the f32 word of 1/16. -/
def scale : EReal := Ideal.ofBits .f32 0x3D800000#32

/-- A row of `D` numbers times a `D × E` matrix, at column `e`. -/
def proj {D E : Nat} (x : Fin D → EReal) (w : Fin D → Fin E → EReal) (e : Fin E) : EReal :=
  ∑ d, x d * w d e

/-- The scaled score of a query row against a key row. -/
def score {D E : Nat} (xq xk : Fin D → EReal) (wq wk : Fin D → Fin E → EReal) : EReal :=
  (∑ e, proj xq wq e * proj xk wk e) * scale

/-- Entry `e` of the attended row of the query `xq` against the keys `xk`. -/
def attnRow {S D E : Nat} (xq : Fin D → EReal) (xk : Fin S → Fin D → EReal) (wq wk wv : Fin D → Fin E → EReal)
    (e : Fin E) : EReal :=
  softmaxAvg (fun k => score xq (xk k) wq wk) (fun k => proj (xk k) wv e)

/-- The whole result: at (b, s, e) the attended row of query (b, s) against the keys of batch b. -/
def out (X : (⟨3, ![8, 2048, 256]⟩ : Shape).Idx → EReal) (Wq Wk Wv : (⟨2, ![256, 256]⟩ : Shape).Idx → EReal) :
    (⟨3, ![8, 2048, 256]⟩ : Shape).Idx → EReal :=
  fun i =>
    attnRow (S := 2048) (D := 256) (E := 256)
      (fun d => X (ix3 (⟨(i 0).val, (i 0).isLt⟩ : Fin 8) (⟨(i 1).val, (i 1).isLt⟩ : Fin 2048) d))
      (fun k d => X (ix3 (⟨(i 0).val, (i 0).isLt⟩ : Fin 8) k d))
      (fun d e => Wq (ix2 d e)) (fun d e => Wk (ix2 d e)) (fun d e => Wv (ix2 d e))
      (⟨(i 2).val, (i 2).isLt⟩ : Fin 256)

/-- The result at explicit coordinates. -/
theorem out_apply (X : (⟨3, ![8, 2048, 256]⟩ : Shape).Idx → EReal) (Wq Wk Wv : (⟨2, ![256, 256]⟩ : Shape).Idx → EReal)
    (b : Fin 8) (s : Fin 2048) (e : Fin 256) :
    out X Wq Wk Wv (ix3 b s e) =
      attnRow (fun d => X (ix3 b s d)) (fun k d => X (ix3 b k d))
        (fun d e => Wq (ix2 d e)) (fun d e => Wk (ix2 d e)) (fun d e => Wv (ix2 d e)) e := rfl

end Cert.Attn

end
-- ==== Proof.PayVal.lean ====
/-
  The fused attention kernel's three stored values, read at an index over the extended reals.

  `x0` is a batch block [1, 2048, 256]. The key product read at (k, e) is the projection of row k of the block by the
  key weights at column e; the value product likewise by the value weights (the changes of float format around it are
  the identity here). The attended tile, read at (0, r, e), is the softmax-weighted average over the 2048 keys of the
  value buffer's column e, the score of key k being the inner product of the projected query row r with row k of the
  key buffer times the word of 1/16, each row's weights normalised after subtracting the row's maximum.
-/
import proofs.«150655_j79534204387962_2_alg».proof.Proof.Gen.KernelIdeal.Skeleton
import Idealize.ShloMosaic.Lib.Pipeline.Value
import Idealize.ShloMosaic.Lib.ValueIdx
import Idealize.ShloMosaic.PureOps.Ideal.Laws
import proofs.«150655_j79534204387962_2_alg».proof.Proof.LibRowReduce
import proofs.«150655_j79534204387962_2_alg».proof.Proof.LibColBroadcast
import proofs.«150655_j79534204387962_2_alg».proof.Proof.LibLeadAxis
import proofs.«150655_j79534204387962_2_alg».proof.Proof.LibDotForms
import proofs.«150655_j79534204387962_2_alg».proof.Proof.Spec

noncomputable section

open scoped BigOperators

namespace Cert.KernelIdeal.PayVal

open Cert.KernelIdeal Cert.KernelIdeal.Gen
open Idealize.ShloMosaic Idealize.ShloMosaic.ValueIdx
open Cert.LibDotForms Cert.LibLeadAxis Cert.LibColBroadcast

/-- The two spellings of a row's maximum folded from the word of -∞ are one function. -/
theorem rowMax_eq {C : Nat} (f : Fin C → EReal) : Cert.LibRowReduce.rowMax f = Cert.LibSoftmaxRow.rowMax f := rfl

/-- The key product at (k, e): row k of the block projected by the key weights. -/
theorem pay2_apply (x0 : FVec Ideal S1x2048x256 .f32) (x2 : FVec Ideal S256x256 .f32) (k : Fin 2048) (e : Fin 256) :
    k0_pay2 (F := Ideal) x0 x2 (ix2 k e) = Cert.Attn.proj (fun d => x0 (ix3 (0 : Fin 1) k d)) (fun d e => x2 (ix2 d e)) e := by
  unfold k0_pay2 k0_pay1
  dsimp only
  rw [shapeCast_self]
  refine (matmul_plain_prec (some .fp32) (shapeCast S2048x256 x0 shapeCasts_S1x2048x256_S2048x256) x2 k e).trans ?_
  unfold Cert.Attn.proj
  exact Finset.sum_congr rfl fun d _ => by rw [cast_drop_apply]

/-- The value product at (k, e): row k of the block projected by the value weights. -/
theorem pay3_apply (x0 : FVec Ideal S1x2048x256 .f32) (x3 : FVec Ideal S256x256 .f32) (k : Fin 2048) (e : Fin 256) :
    k0_pay3 (F := Ideal) x0 x3 (ix2 k e) = Cert.Attn.proj (fun d => x0 (ix3 (0 : Fin 1) k d)) (fun d e => x3 (ix2 d e)) e := by
  unfold k0_pay3 k0_pay1
  dsimp only
  rw [shapeCast_self]
  refine (matmul_plain_prec none
    (truncf .bf16 (shapeCast S2048x256 x0 shapeCasts_S1x2048x256_S2048x256) bitsLt_bf16_f32 : FVec Ideal S2048x256 .bf16)
    (truncf .bf16 x3 bitsLt_bf16_f32 : FVec Ideal S256x256 .bf16) k e).trans ?_
  unfold Cert.Attn.proj
  refine Finset.sum_congr rfl fun d _ => ?_
  show shapeCast S2048x256 x0 shapeCasts_S1x2048x256_S2048x256 (ix2 k d) * x3 (ix2 d e) = _
  rw [cast_drop_apply]

/-- A row's maximum carried back over the row: the column of row maxima broadcast along the lanes. -/
theorem maxcol_apply (v14 : FVec Ideal S1024x2048 .f32) (r : Fin 1024) (k : Fin 2048) :
    broadcastTo S1024x2048
      (shapeCast S1024x1 (multiReduction .maximumf [1] S1024 v14 0xFF800000#32 reduces_S1024x2048_S1024 (.inl rfl) rfl)
        shapeCasts_S1024_S1024x1) broadcasts_S1024x1_S1024x2048 (ix2 r k)
      = Cert.LibSoftmaxRow.rowMax fun j : Fin 2048 => v14 (ix2 r j) :=
  (broadcastTo_a1_ab_apply _ broadcasts_S1024x1_S1024x2048 r k).trans
    ((Cert.LibRowReduce.shapeCast_col_apply _ shapeCasts_S1024_S1024x1 r).trans
      (Cert.LibRowReduce.multiReduction_max_row v14 reduces_S1024x2048_S1024 (.inl rfl) rfl r))

/-- A row's sum carried back over the row. -/
theorem sumcol_apply (v19 : FVec Ideal S1024x2048 .f32) (r : Fin 1024) (k : Fin 2048) :
    broadcastTo S1024x2048
      (shapeCast S1024x1 (multiReduction .add [1] S1024 v19 0x00000000#32 reduces_S1024x2048_S1024 (.inl rfl) rfl)
        shapeCasts_S1024_S1024x1) broadcasts_S1024x1_S1024x2048 (ix2 r k)
      = ∑ j : Fin 2048, v19 (ix2 r j) :=
  (broadcastTo_a1_ab_apply _ broadcasts_S1024x1_S1024x2048 r k).trans
    ((Cert.LibRowReduce.shapeCast_col_apply _ shapeCasts_S1024_S1024x1 r).trans
      (Cert.LibRowReduce.multiReduction_add_row v19 reduces_S1024x2048_S1024 (.inl rfl) rfl r))

/-- The attended tile at (0, r, e). -/
theorem pay4_apply (v6 : FVec Ideal S1x1024x256 .f32) (v8 : FVec Ideal S256x256 .f32) (v10 : FVec Ideal S2048x256 .f32)
    (v11 : FVec Ideal S2048x256 .bf16) (r : Fin 1024) (e : Fin 256) :
    k0_pay4 (F := Ideal) v6 v8 v10 v11 (ix3 (0 : Fin 1) r e)
      = Cert.LibSoftmaxRow.softmaxAvg
          (fun k : Fin 2048 => (∑ e' : Fin 256, Cert.Attn.proj (fun d => v6 (ix3 (0 : Fin 1) r d)) (fun d e => v8 (ix2 d e)) e' * v10 (ix2 k e'))
            * Cert.Attn.scale)
          (fun k : Fin 2048 => v11 (ix2 k e)) := by
  unfold k0_pay4
  dsimp only
  -- the scores of the tile, named
  generalize hS : mulf (matmul dot_S1024x256_S2048x256_S1024x2048_1_1_0_0_n_n (some .fp32)
      (matmul dot_S1024x256_S256x256_S1024x256_1_0_0_1_n_n (some .fp32) (shapeCast S1024x256 v6 shapeCasts_S1x1024x256_S1024x256) v8
        (constant S1024x256 .f32 0x00000000#32)) v10 (constant S1024x2048 .f32 0x00000000#32))
      (broadcast S1024x2048 (Scalar.ofBits .f32 0x3D800000#32)) = sc
  have hsc : ∀ (k : Fin 2048), sc (ix2 r k)
      = (∑ e' : Fin 256, Cert.Attn.proj (fun d => v6 (ix3 (0 : Fin 1) r d)) (fun d e => v8 (ix2 d e)) e' * v10 (ix2 k e')) * Cert.Attn.scale := by
    intro k
    subst hS
    show matmul dot_S1024x256_S2048x256_S1024x2048_1_1_0_0_n_n (some .fp32) _ v10 (constant S1024x2048 .f32 0x00000000#32) (ix2 r k)
      * Cert.Attn.scale = _
    refine congrArg (· * Cert.Attn.scale) ?_
    refine (matmul_transposed_prec (some .fp32) _ v10 r k).trans ?_
    refine Finset.sum_congr rfl fun e' _ => congrArg (· * v10 (ix2 k e')) ?_
    refine (matmul_plain_prec (some .fp32) (shapeCast S1024x256 v6 shapeCasts_S1x1024x256_S1024x256) v8 r e').trans ?_
    unfold Cert.Attn.proj
    exact Finset.sum_congr rfl fun d _ => by rw [cast_drop_apply]
  refine (cast_add_apply _ shapeCasts_S1024x256_S1x1024x256 r e).trans ?_
  refine (matmul_plain_prec none _ v11 r e).trans ?_
  unfold Cert.LibSoftmaxRow.softmaxAvg
  refine Finset.sum_congr rfl fun k _ => congrArg (· * v11 (ix2 k e)) ?_
  show Ideal.div (Ideal.exp (sc (ix2 r k) - _)) _ = _
  rw [maxcol_apply sc r k, sumcol_apply _ r k]
  have hrow : (fun j : Fin 2048 => sc (ix2 r j)) = fun j : Fin 2048 =>
      (∑ e' : Fin 256, Cert.Attn.proj (fun d => v6 (ix3 (0 : Fin 1) r d)) (fun d e => v8 (ix2 d e)) e' * v10 (ix2 j e')) * Cert.Attn.scale :=
    funext hsc
  have hexp : ∀ j : Fin 2048, exp (subf sc (broadcastTo S1024x2048
      (shapeCast S1024x1 (multiReduction .maximumf [1] S1024 sc 0xFF800000#32 reduces_S1024x2048_S1024 (.inl rfl) rfl)
        shapeCasts_S1024_S1024x1) broadcasts_S1024x1_S1024x2048)) (ix2 r j)
      = Ideal.exp (sc (ix2 r j) - Cert.LibSoftmaxRow.rowMax fun j : Fin 2048 => sc (ix2 r j)) := by
    intro j
    show Ideal.exp (sc (ix2 r j) - _) = _
    rw [maxcol_apply sc r j]
  simp only [hexp, hrow, hsc]

/-- The attended tile at (0, r, e) is the whole result's entry (b, s, e), once the tile's four loads are known to be:
    row s of batch b of `X` (the query row), the query weights, the key projection of batch b, and the value projection
    of batch b at column e. -/
theorem attn_of (X : (⟨3, ![8, 2048, 256]⟩ : Shape).Idx → EReal) (Wq Wk Wv : (⟨2, ![256, 256]⟩ : Shape).Idx → EReal)
    (v6 : FVec Ideal S1x1024x256 .f32) (v8 : FVec Ideal S256x256 .f32) (v10 : FVec Ideal S2048x256 .f32)
    (v11 : FVec Ideal S2048x256 .bf16) (b : Fin 8) (s : Fin 2048) (r : Fin 1024) (e : Fin 256)
    (h6 : ∀ d : Fin 256, v6 (ix3 (0 : Fin 1) r d) = X (ix3 b s d))
    (h8 : ∀ d e' : Fin 256, v8 (ix2 d e') = Wq (ix2 d e'))
    (h10 : ∀ (k : Fin 2048) (e' : Fin 256), v10 (ix2 k e') = Cert.Attn.proj (fun d => X (ix3 b k d)) (fun d e => Wk (ix2 d e)) e')
    (h11 : ∀ k : Fin 2048, v11 (ix2 k e) = Cert.Attn.proj (fun d => X (ix3 b k d)) (fun d e => Wv (ix2 d e)) e) :
    k0_pay4 (F := Ideal) v6 v8 v10 v11 (ix3 (0 : Fin 1) r e) = Cert.Attn.out X Wq Wk Wv (ix3 b s e) := by
  rw [pay4_apply, Cert.Attn.out_apply]
  unfold Cert.Attn.attnRow Cert.Attn.score
  simp only [h6, h8, h10, h11]

end Cert.KernelIdeal.PayVal

end
-- ==== Proof.PointVal.lean ====
/-
  The fused attention kernel's run, read as values over the extended reals.

  The grid has 16 points, point t handling batch t / 2 and query tile t mod 2. Window 0's block at point t is batch
  t / 2 of `X` whole, windows 1 to 3 are the three weight matrices whole, and the output's block is rows
  1024·(t mod 2) … of batch t / 2. After an even point the two scratch buffers hold the key and the value projection of
  that point's batch; an odd point leaves them as they were, and its batch is the batch of the point before it. So
  after every point they hold the projections of the point's own batch, and at every point the output block is the
  attention of the point's query rows against the keys and values of its batch: the block of the whole-array
  function `Cert.Attn.out`. The 16 blocks tile the result array (row s of batch b lies in the block of point
  2b + s / 1024), so the array ends at that function of the four arguments.
-/
import proofs.«150655_j79534204387962_2_alg».proof.Proof.Gen.KernelIdeal.Value
import Idealize.ShloMosaic.Lib.Pipeline.Value
import proofs.«150655_j79534204387962_2_alg».proof.Proof.Pieces
import proofs.«150655_j79534204387962_2_alg».proof.Proof.PayVal
import proofs.«150655_j79534204387962_2_alg».proof.Proof.Spec

noncomputable section

namespace Cert.KernelIdeal.AttnRun

open Cert.KernelIdeal Cert.KernelIdeal.Gen Cert.KernelIdeal.Pieces Cert.KernelIdeal.PayVal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The four argument arrays as the region finds them. -/
abbrev X (c : Dev nD) : S8x2048x256.Idx → EReal := V m c main_arg0
abbrev Wq (c : Dev nD) : S256x256.Idx → EReal := V m c main_arg1
abbrev Wk (c : Dev nD) : S256x256.Idx → EReal := V m c main_arg2
abbrev Wv (c : Dev nD) : S256x256.Idx → EReal := V m c main_arg3

/-- The result array's contents: single-head attention of the four arguments. -/
abbrev G (c : Dev nD) : S8x2048x256.Idx → EReal := Cert.Attn.out (X m c) (Wq m c) (Wk m c) (Wv m c)

/-- The printed index maps and the second grid coordinate, decided over the 16 points. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 2 ∧ win0_4.index t (1 : Fin 3) = t.val % 2 ∧ win0_4.index t (2 : Fin 3) = 0
    ∧ ((grid0.coords t) 1).val = t.val % 2 :=
  (by decide +kernel : ∀ t : Fin grid0.N,
    win0_0.index t (0 : Fin 3) = t.val / 2 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 2 ∧ win0_4.index t (1 : Fin 3) = t.val % 2 ∧ win0_4.index t (2 : Fin 3) = 0
    ∧ ((grid0.coords t) 1).val = t.val % 2)

/-- The batch of point t. -/
abbrev bOf (t : Fin cfg0.N) : Fin 8 := ⟨t.val / 2, by have h := t.isLt; have hN : cfg0.N = 16 := N_0; omega⟩

/-- Row r of point t's query tile, as a row of the batch. -/
abbrev rowOf (t : Fin cfg0.N) (r : Fin 1024) : Fin 2048 := ⟨1024 * (t.val % 2) + r.val, by have h := r.isLt; omega⟩

/-- Window 0's block at point t, read at (0, s, d): entry (t / 2, s, d) of `X`. -/
theorem iblk0_apply (c : Dev nD) (t : Fin cfg0.N) (s : Fin 2048) (d : Fin 256) :
    (iblk m c 0 t : Vec Ideal S1x2048x256 .f32) (ix3 (0 : Fin 1) s d) = X m c (ix3 (bOf t) s d) := by
  obtain ⟨e0, e1, e2, -⟩ := idx_facts t
  show V m c main_arg0 (((cfg0.win 0).blk t).view.emb (ix3 (0 : Fin 1) s d)) = _
  refine congrArg (V m c main_arg0) ?_
  funext a; apply Fin.ext
  match a with
  | ⟨0, _⟩ => show win0_0.index t (0 : Fin 3) * 1 + 1 * 0 = t.val / 2; omega
  | ⟨1, _⟩ => show win0_0.index t (1 : Fin 3) * 2048 + 1 * s.val = s.val; omega
  | ⟨2, _⟩ => show win0_0.index t (2 : Fin 3) * 256 + 1 * d.val = d.val; omega

/-- Window 1's block at any point is the query weights. -/
theorem iblk1_apply (c : Dev nD) (t : Fin cfg0.N) (d e : Fin 256) :
    (iblk m c 1 t : Vec Ideal S256x256 .f32) (ix2 d e) = Wq m c (ix2 d e) := by
  obtain ⟨-, -, -, e0, e1, -⟩ := idx_facts t
  show V m c main_arg1 (((cfg0.win 1).blk t).view.emb (ix2 d e)) = _
  refine congrArg (V m c main_arg1) ?_
  funext a; apply Fin.ext
  match a with
  | ⟨0, _⟩ => show win0_1.index t (0 : Fin 2) * 256 + 1 * d.val = d.val; omega
  | ⟨1, _⟩ => show win0_1.index t (1 : Fin 2) * 256 + 1 * e.val = e.val; omega

/-- Window 2's block at any point is the key weights. -/
theorem iblk2_apply (c : Dev nD) (t : Fin cfg0.N) (d e : Fin 256) :
    (iblk m c 2 t : Vec Ideal S256x256 .f32) (ix2 d e) = Wk m c (ix2 d e) := by
  obtain ⟨-, -, -, -, -, e0, e1, -⟩ := idx_facts t
  show V m c main_arg2 (((cfg0.win 2).blk t).view.emb (ix2 d e)) = _
  refine congrArg (V m c main_arg2) ?_
  funext a; apply Fin.ext
  match a with
  | ⟨0, _⟩ => show win0_2.index t (0 : Fin 2) * 256 + 1 * d.val = d.val; omega
  | ⟨1, _⟩ => show win0_2.index t (1 : Fin 2) * 256 + 1 * e.val = e.val; omega

/-- Window 3's block at any point is the value weights. -/
theorem iblk3_apply (c : Dev nD) (t : Fin cfg0.N) (d e : Fin 256) :
    (iblk m c 3 t : Vec Ideal S256x256 .f32) (ix2 d e) = Wv m c (ix2 d e) := by
  obtain ⟨-, -, -, -, -, -, -, e0, e1, -⟩ := idx_facts t
  show V m c main_arg3 (((cfg0.win 3).blk t).view.emb (ix2 d e)) = _
  refine congrArg (V m c main_arg3) ?_
  funext a; apply Fin.ext
  match a with
  | ⟨0, _⟩ => show win0_3.index t (0 : Fin 2) * 256 + 1 * d.val = d.val; omega
  | ⟨1, _⟩ => show win0_3.index t (1 : Fin 2) * 256 + 1 * e.val = e.val; omega

/-- The query tile of point t read at (0, r, d): row 1024·(t mod 2) + r of the batch block. -/
theorem qtile_apply (t : Fin cfg0.N) (x0 : Vec Ideal S1x2048x256 .f32) (r : Fin 1024) (d : Fin 256) :
    qtile (grid0.coords t) x0 (ix3 (0 : Fin 1) r d) = x0 (ix3 (0 : Fin 1) (rowOf t r) d) := by
  obtain ⟨-, -, -, -, -, -, -, -, -, -, -, -, hq⟩ := idx_facts t
  have hk := k0_off1_eq (grid0.coords t)
  show x0 ((Rect.unit (s := S1x2048x256) (k0_off1 (grid0.coords t)) S1x1024x256.size (k0_off1_inb (grid0.coords t))).idx (ix3 (0 : Fin 1) r d)) = _
  refine congrArg x0 ?_
  funext a; apply Fin.ext
  match a with
  | ⟨0, _⟩ => show k0_off1 (grid0.coords t) 0 + 1 * 0 = 0; rw [hk]; rfl
  | ⟨1, _⟩ =>
    show k0_off1 (grid0.coords t) 1 + 1 * r.val = 1024 * (t.val % 2) + r.val
    rw [hk]
    show 1024 * ((grid0.coords t) 1).val + 1 * r.val = _
    omega
  | ⟨2, _⟩ => show k0_off1 (grid0.coords t) 2 + 1 * d.val = d.val; rw [hk]; show 0 + 1 * d.val = d.val; omega

/-- After an even point the scratch buffers hold the key and the value projection of the point's batch. -/
theorem scratch_even (c : Dev nD) (t : Fin cfg0.N) (h0 : t.val % 2 = 0) :
    (∀ (k : Fin 2048) (e : Fin 256), ((outsAt0 m c t.val t.isLt).2.1 : Vec Ideal S2048x256 .f32) (ix2 k e)
        = Cert.Attn.proj (fun d => X m c (ix3 (bOf t) k d)) (fun d e => Wk m c (ix2 d e)) e)
    ∧ (∀ (k : Fin 2048) (e : Fin 256), ((outsAt0 m c t.val t.isLt).2.2 : Vec Ideal S2048x256 .bf16) (ix2 k e)
        = Cert.Attn.proj (fun d => X m c (ix3 (bOf t) k d)) (fun d e => Wv m c (ix2 d e)) e) := by
  rw [outsAt0_A m c t h0]
  dsimp only
  rw [kscr_A, vscr_A]
  refine ⟨fun k e => ?_, fun k e => ?_⟩
  · rw [pay2_apply]
    simp only [iblk0_apply m c t, iblk2_apply m c t]
  · rw [pay3_apply]
    simp only [iblk0_apply m c t, iblk3_apply m c t]

/-- After every point they do: an odd point stores nothing into them, and its batch is the batch of the even point
    before it. -/
theorem scratch_at (c : Dev nD) (t : Fin cfg0.N) :
    (∀ (k : Fin 2048) (e : Fin 256), ((outsAt0 m c t.val t.isLt).2.1 : Vec Ideal S2048x256 .f32) (ix2 k e)
        = Cert.Attn.proj (fun d => X m c (ix3 (bOf t) k d)) (fun d e => Wk m c (ix2 d e)) e)
    ∧ (∀ (k : Fin 2048) (e : Fin 256), ((outsAt0 m c t.val t.isLt).2.2 : Vec Ideal S2048x256 .bf16) (ix2 k e)
        = Cert.Attn.proj (fun d => X m c (ix3 (bOf t) k d)) (fun d e => Wv m c (ix2 d e)) e) := by
  by_cases h0 : t.val % 2 = 0
  · exact scratch_even m c t h0
  · have hlt : t.val - 1 < cfg0.N := Nat.lt_of_le_of_lt (Nat.sub_le _ _) t.isLt
    have hprev := scratch_even m c ⟨t.val - 1, hlt⟩ (by show (t.val - 1) % 2 = 0; omega)
    have hb : bOf (⟨t.val - 1, hlt⟩ : Fin cfg0.N) = bOf t := Fin.ext (by show (t.val - 1) / 2 = t.val / 2; omega)
    rw [hb] at hprev
    rw [outsAt0_B m c t h0]
    dsimp only
    unfold sout0_B_0 sout0_B_1
    exact hprev

/-- At every point the output block read at (0, r, e) is the result's entry (t / 2, 1024·(t mod 2) + r, e). -/
theorem tile_at (c : Dev nD) (t : Fin cfg0.N) (r : Fin 1024) (e : Fin 256) :
    ((outsAt0 m c t.val t.isLt).1 : Vec Ideal S1x1024x256 .f32) (ix3 (0 : Fin 1) r e)
      = G m c (ix3 (bOf t) (rowOf t r) e) := by
  by_cases h0 : t.val % 2 = 0
  · rw [outsAt0_A m c t h0]
    dsimp only
    rw [out_A]
    exact attn_of (X m c) (Wq m c) (Wk m c) (Wv m c) (qtile (grid0.coords t) (iblk m c 0 t)) (iblk m c 1 t)
      (k0_pay2 (F := Ideal) (iblk m c 0 t) (iblk m c 2 t)) (k0_pay3 (F := Ideal) (iblk m c 0 t) (iblk m c 3 t))
      (bOf t) (rowOf t r) r e
      (fun d => (qtile_apply t (iblk m c 0 t) r d).trans (iblk0_apply m c t (rowOf t r) d))
      (fun d e' => iblk1_apply m c t d e')
      (fun k e' => by rw [pay2_apply]; simp only [iblk0_apply m c t, iblk2_apply m c t])
      (fun k => by rw [pay3_apply]; simp only [iblk0_apply m c t, iblk3_apply m c t])
  · have hlt : t.val - 1 < cfg0.N := Nat.lt_of_le_of_lt (Nat.sub_le _ _) t.isLt
    have hprev := scratch_at m c ⟨t.val - 1, hlt⟩
    have hb : bOf (⟨t.val - 1, hlt⟩ : Fin cfg0.N) = bOf t := Fin.ext (by show (t.val - 1) / 2 = t.val / 2; omega)
    rw [hb] at hprev
    rw [outsAt0_B m c t h0]
    dsimp only
    rw [out_B]
    exact attn_of (X m c) (Wq m c) (Wk m c) (Wv m c) (qtile (grid0.coords t) (iblk m c 0 t)) (iblk m c 1 t)
      (outsAt0 m c (t.val - 1) hlt).2.1 (outsAt0 m c (t.val - 1) hlt).2.2
      (bOf t) (rowOf t r) r e
      (fun d => (qtile_apply t (iblk m c 0 t) r d).trans (iblk0_apply m c t (rowOf t r) d))
      (fun d e' => iblk1_apply m c t d e')
      (fun k e' => hprev.1 k e')
      (fun k => hprev.2 k e)

/-- What point t writes back is block t of the attention of the four arguments. -/
theorem flushed_eq (c : Dev nD) (t : Fin cfg0.N) :
    (dats m 0 c).flushed 4 t = ((cfg0.win 4).blk t).view.read (Elt Ideal) (G m c) := by
  rw [Value.flushed4]
  refine funext fun (j : S1x1024x256.Idx) => ?_
  obtain ⟨z, r, e, rfl⟩ : ∃ (z : Fin 1) (r : Fin 1024) (e : Fin 256), j = ix3 z r e := ⟨j 0, j 1, j 2, eq_ix3 j⟩
  obtain rfl : z = 0 := Subsingleton.elim _ _
  show ((outsAt0 m c t.val t.isLt).1 : Vec Ideal S1x1024x256 .f32) (ix3 (0 : Fin 1) r e)
    = G m c (((cfg0.win 4).blk t).view.emb (ix3 (0 : Fin 1) r e))
  rw [tile_at m c t r e]
  refine congrArg (G m c) ?_
  obtain ⟨-, -, -, -, -, -, -, -, -, e0, e1, e2, -⟩ := idx_facts t
  funext a; apply Fin.ext
  match a with
  | ⟨0, _⟩ => show t.val / 2 = win0_4.index t (0 : Fin 3) * 1 + 1 * 0; omega
  | ⟨1, _⟩ => show 1024 * (t.val % 2) + r.val = win0_4.index t (1 : Fin 3) * 1024 + 1 * r.val; omega
  | ⟨2, _⟩ => show e.val = win0_4.index t (2 : Fin 3) * 256 + 1 * e.val; omega

/-- An index of the result array is in point t's block iff each coordinate is in the block's range on its axis. -/
theorem mem_blk (t : Fin cfg0.N) (i : S8x2048x256.Idx) :
    i ∈ ((cfg0.win 4).blk t).view.set ↔ ∀ a : Fin 3, win0_4.index t a * S1x1024x256.size a ≤ (i a).val
      ∧ (i a).val < win0_4.index t a * S1x1024x256.size a + S1x1024x256.size a := by
  show i ∈ ((View.whole main_v0).slice (win0_4.rect t)).set ↔ _
  rw [View.set_slice_whole, Rect.mem_set_unit]
  exact Iff.rfl

/-- The 16 blocks tile the result array: entry (b, s, e) lies in the block of point 2b + s / 1024. -/
theorem cover (i : S8x2048x256.Idx) :
    ∃ t : Fin cfg0.N, (cfg0.win 4).flush t = true ∧ i ∈ ((cfg0.win 4).blk t).view.set := by
  have hN : cfg0.N = 16 := N_0
  have h0 : (i 0).val < 8 := (i 0).isLt
  have h1 : (i 1).val < 2048 := (i 1).isLt
  have h2 : (i 2).val < 256 := (i 2).isLt
  obtain ⟨t, ht⟩ : ∃ t : Fin cfg0.N, t.val = 2 * (i 0).val + (i 1).val / 1024 :=
    ⟨⟨2 * (i 0).val + (i 1).val / 1024, by omega⟩, rfl⟩
  refine ⟨t, flush0_4 t, ?_⟩
  rw [mem_blk]
  obtain ⟨-, -, -, -, -, -, -, -, -, e0, e1, e2, -⟩ := idx_facts t
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 256 ≤ (i 2).val ∧ (i 2).val < win0_4.index t (2 : Fin 3) * 256 + 256
    omega

/-- The result array after the run is the attention of the four arguments. -/
theorem final (c : Dev nD) : (dats m 0 c).arrAt 4 cfg0.N = G m c :=
  (dats m 0 c).arrAt_eq_of_cover 4 (G m c) (fun t _ => flushed_eq m c t) (cover)

/-- The run: the result array at the attention of the argument arrays, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.AttnRun

end
-- ==== Proof.LibAxis2.lean ====
/-
  An array `[A, R, C]` reduced along its last axis, as a kernel and as the host compute it, and the two layout steps
  that carry a per-row result back over the row.

  Over the extended reals: the kernel's lane maximum from the word of -∞ and the host's reduce with a maximum body from
  the same word are both the fold of `max` over the `C` entries of row `(a, r)`; the kernel's lane sum and the host's sum
  from zero are both the plain sum of that row's entries. A result `[A, R]` recast as `[A, R, 1]` reads `(a, r)` at
  `(a, r, 0)`, and `[A, R, 1]` broadcast along the last axis to `[A, R, D]` reads `(a, r, 0)` at every `(a, r, d)`.
-/
import Mathlib
import Idealize.ShloMosaic.PureOps.Ideal
import Idealize.ShloMosaic.PureOps.Ideal.Laws
import Idealize.ShloMosaic.Lib.Pipeline.Value
import Idealize.ShloMosaic.Lib.ValueIdx
import proofs.«150655_j79534204387962_2_alg».proof.Proof.LibSoftmaxRow

noncomputable section

open scoped BigOperators

namespace Cert.LibAxis2

open Idealize.ShloMosaic Idealize.ShloMosaic.ValueIdx Cert.LibSoftmaxRow

variable {A R C D : Nat}

/-- The reduced index `(a, r)` with lane `k` put back on the last axis is `(a, r, k)`. -/
theorem lift_last (h : (⟨3, ![A, R, C]⟩ : Shape).Reduces [2] (⟨2, ![A, R]⟩ : Shape)) (a : Fin A) (r : Fin R)
    (k : Fin ((⟨3, ![A, R, C]⟩ : Shape).size 2)) : h.lift (ix2 a r) k = ix3 a r (⟨k.val, k.isLt⟩ : Fin C) := by
  funext c; apply Fin.ext
  fin_cases c <;> rfl

/-- The kernel's lane maximum of row `(a, r)`. -/
theorem multiReduction_max_last (src : FVec Ideal ⟨3, ![A, R, C]⟩ .f32)
    (h : (⟨3, ![A, R, C]⟩ : Shape).Reduces [2] (⟨2, ![A, R]⟩ : Shape)) (hφ : FKind.Formats .f32)
    (hacc : (0xFF800000#32 : BitVec 32) = FKind.maximumf.neutral .f32 hφ) (a : Fin A) (r : Fin R) :
    multiReduction .maximumf [2] (⟨2, ![A, R]⟩ : Shape) src 0xFF800000#32 h hφ hacc (ix2 a r)
      = rowMax fun k : Fin C => src (ix3 a r k) := by
  rw [Ideal.multiReduction_maximumf_single src _ h hφ hacc (ix2 a r)]
  have hf : (src ∘ h.lift (ix2 a r)) = fun k : Fin C => src (ix3 a r k) :=
    funext fun k => congrArg src (lift_last h a r k)
  unfold rowMax
  exact congrArg (fun f => Finset.fold max (Ideal.ofBits .f32 0xFF800000#32) f (Finset.univ : Finset (Fin C))) hf

/-- The host's reduce with a maximum body along the last axis, from the word of -∞, at row `(a, r)`. -/
theorem hostReduce_max_last (x : FVec Ideal ⟨3, ![A, R, C]⟩ .f32) (init : (⟨0, ![]⟩ : Shape).Idx → Ideal .f32)
    (hinit : ∀ i, init i = Ideal.ofBits .f32 0xFF800000#32)
    (h' : (⟨3, ![A, R, C]⟩ : Shape).ReducesTo [2] (⟨2, ![A, R]⟩ : Shape))
    (h : (⟨3, ![A, R, C]⟩ : Shape).Reduces [2] (⟨2, ![A, R]⟩ : Shape))
    (hu : 0 < (⟨0, ![]⟩ : Shape).numel) (a : Fin A) (r : Fin R) :
    Host.reduce FloatOps.maximumf x init h' hu (ix2 a r) = rowMax fun k : Fin C => x (ix3 a r k) := by
  rw [Host.reduce_eq_fold_single FloatOps.maximumf x _ h' h hu, hinit]
  have hf : (x ∘ h.lift (ix2 a r)) = fun k : Fin C => x (ix3 a r k) :=
    funext fun k => congrArg x (lift_last h a r k)
  unfold rowMax
  exact congrArg (fun f => Finset.fold max (Ideal.ofBits .f32 0xFF800000#32) f (Finset.univ : Finset (Fin C))) hf

/-- The kernel's lane sum of row `(a, r)`. -/
theorem multiReduction_add_last (src : FVec Ideal ⟨3, ![A, R, C]⟩ .f32)
    (h : (⟨3, ![A, R, C]⟩ : Shape).Reduces [2] (⟨2, ![A, R]⟩ : Shape)) (hφ : FKind.Formats .f32)
    (hacc : (0x00000000#32 : BitVec 32) = FKind.add.neutral .f32 hφ) (a : Fin A) (r : Fin R) :
    multiReduction .add [2] (⟨2, ![A, R]⟩ : Shape) src 0x00000000#32 h hφ hacc (ix2 a r) = ∑ k : Fin C, src (ix3 a r k) := by
  rw [Ideal.multiReduction_add_single src _ h hφ hacc (ix2 a r)]
  refine Finset.sum_congr rfl fun k _ => ?_
  exact congrArg src (lift_last h a r k)

/-- The host's sum along the last axis from zero, at row `(a, r)`. -/
theorem hostReduceAdd_last (x : FVec Ideal ⟨3, ![A, R, C]⟩ .f32) (init : EReal) (hinit : init = 0)
    (h' : (⟨3, ![A, R, C]⟩ : Shape).ReducesTo [2] (⟨2, ![A, R]⟩ : Shape))
    (h : (⟨3, ![A, R, C]⟩ : Shape).Reduces [2] (⟨2, ![A, R]⟩ : Shape)) (a : Fin A) (r : Fin R) :
    Ideal.hostReduceAdd h' x init (ix2 a r) = ∑ k : Fin C, x (ix3 a r k) := by
  rw [Ideal.hostReduceAdd_single h' h, hinit, zero_add]
  refine Finset.sum_congr rfl fun k _ => ?_
  exact congrArg x (lift_last h a r k)

/-- `[A, R]` recast as `[A, R, 1]` reads `(a, r)` at `(a, r, 0)`. -/
theorem shapeCast_keepdims_apply {α : Type} (v : (⟨2, ![A, R]⟩ : Shape).Idx → α)
    (h : (⟨2, ![A, R]⟩ : Shape).ShapeCasts ⟨3, ![A, R, 1]⟩) (a : Fin A) (r : Fin R) :
    shapeCast ⟨3, ![A, R, 1]⟩ v h (ix3 a r (0 : Fin 1)) = v (ix2 a r) := by
  refine shapeCast_apply v h _ _ ?_
  rw [Shape.rowMajor_val_three, Shape.rowMajor_val_two]
  show a.val * R + r.val = (a.val * R + r.val) * 1 + 0
  omega

/-- `[A, R, 1]` broadcast along the last axis to `[A, R, D]` reads `(a, r, 0)` at `(a, r, d)`, when `A, R ≠ 1` or not. -/
theorem broadcastTo_last_apply {α : Type} (v : (⟨3, ![A, R, 1]⟩ : Shape).Idx → α)
    (h : (⟨3, ![A, R, 1]⟩ : Shape).Broadcasts ⟨3, ![A, R, D]⟩) (a : Fin A) (r : Fin R) (d : Fin D) :
    broadcastTo ⟨3, ![A, R, D]⟩ v h (ix3 a r d) = v (ix3 a r (0 : Fin 1)) := by
  refine broadcastTo_apply v h _ _ fun c => ?_
  match c with
  | ⟨0, _⟩ =>
    show a.val = if A = 1 then 0 else a.val
    split
    · next hA => have := a.isLt; omega
    · rfl
  | ⟨1, _⟩ =>
    show r.val = if R = 1 then 0 else r.val
    split
    · next hR => have := r.isLt; omega
    · rfl
  | ⟨2, _⟩ =>
    show 0 = if (1 : Nat) = 1 then 0 else d.val
    rw [if_pos rfl]

end Cert.LibAxis2

end
-- ==== Proof.Consts.lean ====
/-
  The three float words the two programs spell, as the extended reals they denote, and the one law that joins the
  two spellings of the attention scale: the reference divides a score by the square root of 256, which is 16 exactly,
  and the kernel multiplies it by the word of 1/16; on every extended real the quotient by 16 is the product with 1/16.
-/
import Mathlib
import Idealize.ShloMosaic.PureOps.Ideal

noncomputable section

namespace Cert.Attn.Consts

open Idealize.ShloMosaic

/-- The word `0x43800000` denotes 256. -/
theorem ofBits_256 : Ideal.ofBits .f32 0x43800000#32 = ((256 : ℝ) : EReal) := by
  simp [Ideal.ofBits, Ideal.ieee, -EReal.coe_mul]; norm_num

/-- The word `0x3D800000` denotes 1/16. -/
theorem ofBits_sixteenth : Ideal.ofBits .f32 0x3D800000#32 = ((1 / 16 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

/-- The square root of the word of 256 is 16. -/
theorem sqrt_256 : Ideal.sqrt (Ideal.ofBits .f32 0x43800000#32) = ((16 : ℝ) : EReal) := by
  rw [ofBits_256, Ideal.sqrt_coe, if_neg (by norm_num)]
  have h : Real.sqrt 256 = 16 := by
    rw [show (256 : ℝ) = 16 ^ 2 by norm_num, Real.sqrt_sq (by norm_num)]
  rw [h]

/-- A quotient by the square root of 256 is the product with the word of 1/16, on every extended real. -/
theorem div_sqrt_256 (s : EReal) :
    Ideal.div s (Ideal.sqrt (Ideal.ofBits .f32 0x43800000#32)) = s * Ideal.ofBits .f32 0x3D800000#32 := by
  rw [sqrt_256, ofBits_sixteenth, Ideal.div_coe (by norm_num)]

end Cert.Attn.Consts

end
-- ==== Proof.RefVal.lean ====
/-
  The reference's result, read index by index over the extended reals, is single-head attention of its arguments.

  Each host operation is read at an index from its operands: the three projections and the two batched products as
  sums over the contracted axis; the quotient by the square root of 256 as the product with 1/16; the row maximum as a
  fold of max from -∞ (and the further maximum with a splat of -∞ changes nothing); the exponentials' row sum from zero
  as the plain sum; so the weight of key k for query (b, s) is the exponential of its shifted score over the row's sum,
  and the result at (b, s, e) the weighted sum of the value projection's column e.
-/
import proofs.«150655_j79534204387962_2_alg».proof.Proof.Gen.ReferenceIdeal.Read
import Idealize.ShloMosaic.Lib.ValueIdx
import proofs.«150655_j79534204387962_2_alg».proof.Proof.LibAxis2
import proofs.«150655_j79534204387962_2_alg».proof.Proof.Consts
import proofs.«150655_j79534204387962_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.LibSoftmaxRow

variable (x0 : (⟨S8x2048x256, .f32⟩ : BufTy).Contents (Elt Ideal)) (x1 x2 x3 : (⟨S256x256, .f32⟩ : BufTy).Contents (Elt Ideal))

/-- Row (b, s) of `x0`. -/
abbrev row (b : Fin 8) (s : Fin 2048) : Fin 256 → EReal := fun d => x0 (ix3 b s d)
/-- A weight matrix by coordinates. -/
abbrev mat (w : (⟨S256x256, .f32⟩ : BufTy).Contents (Elt Ideal)) : Fin 256 → Fin 256 → EReal := fun d e => w (ix2 d e)

/-- The query projection at (b, s, e). -/
theorem v0_at (b : Fin 8) (s : Fin 2048) (e : Fin 256) :
    val_main_v0 (F := Ideal) x0 x1 (ix3 b s e) = Cert.Attn.proj (row x0 b s) (mat x1) e := by
  rw [val_main_v0_apply]
  unfold Cert.Attn.proj
  refine Finset.sum_congr rfl fun k _ => ?_
  have el : lidx_main_v0 (ix3 b s e) k = ix3 b s k :=
    funext fun a => Fin.ext (by match a with | ⟨0, _⟩ => rfl | ⟨1, _⟩ => rfl | ⟨2, _⟩ => rfl)
  have er : ridx_main_v0 (ix3 b s e) k = ix2 k e :=
    funext fun a => Fin.ext (by match a with | ⟨0, _⟩ => rfl | ⟨1, _⟩ => rfl)
  rw [el, er]

/-- The key projection at (b, s, e). -/
theorem v1_at (b : Fin 8) (s : Fin 2048) (e : Fin 256) :
    val_main_v1 (F := Ideal) x0 x2 (ix3 b s e) = Cert.Attn.proj (row x0 b s) (mat x2) e := by
  rw [val_main_v1_apply]
  unfold Cert.Attn.proj
  refine Finset.sum_congr rfl fun k _ => ?_
  have el : lidx_main_v1 (ix3 b s e) k = ix3 b s k :=
    funext fun a => Fin.ext (by match a with | ⟨0, _⟩ => rfl | ⟨1, _⟩ => rfl | ⟨2, _⟩ => rfl)
  have er : ridx_main_v1 (ix3 b s e) k = ix2 k e :=
    funext fun a => Fin.ext (by match a with | ⟨0, _⟩ => rfl | ⟨1, _⟩ => rfl)
  rw [el, er]

/-- The value projection at (b, s, e). -/
theorem v2_at (b : Fin 8) (s : Fin 2048) (e : Fin 256) :
    val_main_v2 (F := Ideal) x0 x3 (ix3 b s e) = Cert.Attn.proj (row x0 b s) (mat x3) e := by
  rw [val_main_v2_apply]
  unfold Cert.Attn.proj
  refine Finset.sum_congr rfl fun k _ => ?_
  have el : lidx_main_v2 (ix3 b s e) k = ix3 b s k :=
    funext fun a => Fin.ext (by match a with | ⟨0, _⟩ => rfl | ⟨1, _⟩ => rfl | ⟨2, _⟩ => rfl)
  have er : ridx_main_v2 (ix3 b s e) k = ix2 k e :=
    funext fun a => Fin.ext (by match a with | ⟨0, _⟩ => rfl | ⟨1, _⟩ => rfl)
  rw [el, er]

/-- The scaled score of key k for query (b, s). -/
theorem v6_at (b : Fin 8) (s k : Fin 2048) :
    val_main_v6 (F := Ideal) x0 x1 x2 (ix3 b s k) = Cert.Attn.score (row x0 b s) (row x0 b k) (mat x1) (mat x2) := by
  rw [val_main_v6_apply, val_main_v5_apply, val_main_v4_apply, val_main_cst_apply]
  show Ideal.div _ (Ideal.sqrt (Ideal.ofBits .f32 0x43800000#32)) = _
  rw [Cert.Attn.Consts.div_sqrt_256, val_main_v3_apply]
  unfold Cert.Attn.score Cert.Attn.scale
  refine congrArg (· * Ideal.ofBits .f32 0x3D800000#32) ?_
  refine Finset.sum_congr rfl fun e' _ => ?_
  have el : lidx_main_v3 (ix3 b s k) e' = ix3 b s e' :=
    funext fun a => Fin.ext (by match a with | ⟨0, _⟩ => rfl | ⟨1, _⟩ => rfl | ⟨2, _⟩ => rfl)
  have er : ridx_main_v3 (ix3 b s k) e' = ix3 b k e' :=
    funext fun a => Fin.ext (by match a with | ⟨0, _⟩ => rfl | ⟨1, _⟩ => rfl | ⟨2, _⟩ => rfl)
  rw [el, er, v0_at, v1_at]

/-- The scores of query (b, s), as a row. -/
abbrev scores (b : Fin 8) (s : Fin 2048) : Fin 2048 → EReal :=
  fun k => Cert.Attn.score (row x0 b s) (row x0 b k) (mat x1) (mat x2)

/-- The row maximum carried back over the row. -/
theorem v11_at (b : Fin 8) (s k : Fin 2048) :
    val_main_v11 (F := Ideal) x0 x1 x2 (ix3 b s k) = rowMax (scores x0 x1 x2 b s) := by
  rw [val_main_v11_apply, val_main_v10_apply, val_main_v9_apply, val_main_v8_apply, val_main_cst_1_apply]
  have ei : idx_main_v10 (idx_main_v11 (ix3 b s k)) = ix2 b s :=
    funext fun a => Fin.ext (by match a with | ⟨0, _⟩ => rfl | ⟨1, _⟩ => rfl)
  rw [ei]
  show max (Ideal.ofBits .f32 0xFF800000#32) (val_main_v7 (F := Ideal) x0 x1 x2 (ix2 b s)) = _
  rw [max_negInf]
  unfold val_main_v7
  refine (Cert.LibAxis2.hostReduce_max_last (val_main_v6 (F := Ideal) x0 x1 x2) (val_main_cst_0 (F := Ideal))
    (fun _ => rfl) reducesTo_S8x2048x2048_S8x2048_d2 (by decide) h_S_ b s).trans ?_
  exact congrArg rowMax (funext fun j => v6_at x0 x1 x2 b s j)

/-- The shifted exponential of key k's score. -/
theorem v13_at (b : Fin 8) (s k : Fin 2048) :
    val_main_v13 (F := Ideal) x0 x1 x2 (ix3 b s k)
      = Ideal.exp (scores x0 x1 x2 b s k - rowMax (scores x0 x1 x2 b s)) := by
  rw [val_main_v13_apply, val_main_v12_apply]
  show Ideal.exp (val_main_v6 (F := Ideal) x0 x1 x2 (ix3 b s k) - val_main_v11 (F := Ideal) x0 x1 x2 (ix3 b s k)) = _
  rw [v6_at, v11_at]

/-- The row's sum of shifted exponentials carried back over the row. -/
theorem v16_at (b : Fin 8) (s k : Fin 2048) :
    val_main_v16 (F := Ideal) x0 x1 x2 (ix3 b s k)
      = ∑ j : Fin 2048, Ideal.exp (scores x0 x1 x2 b s j - rowMax (scores x0 x1 x2 b s)) := by
  rw [val_main_v16_apply, val_main_v15_apply]
  have ei : idx_main_v15 (idx_main_v16 (ix3 b s k)) = ix2 b s :=
    funext fun a => Fin.ext (by match a with | ⟨0, _⟩ => rfl | ⟨1, _⟩ => rfl)
  rw [ei, val_main_v14_apply, val_main_cst_2_apply]
  show Ideal.ofBits .f32 0x00000000#32 + _ = _
  rw [Cert.Attn.Consts.ofBits_zero, zero_add]
  refine Finset.sum_congr rfl fun j _ => ?_
  have ej : idx_main_v14 (ix2 b s) j = ix3 b s j :=
    funext fun a => Fin.ext (by match a with | ⟨0, _⟩ => rfl | ⟨1, _⟩ => rfl | ⟨2, _⟩ => rfl)
  rw [ej, v13_at]

/-- The reference's result is the attention of its arguments. -/
theorem result_eq : val_main_v18 (F := Ideal) x0 x1 x2 x3 = Cert.Attn.out x0 x1 x2 x3 := by
  funext i
  obtain ⟨b, s, e, rfl⟩ : ∃ (b : Fin 8) (s : Fin 2048) (e : Fin 256), i = ix3 b s e := ⟨i 0, i 1, i 2, eq_ix3 i⟩
  rw [val_main_v18_apply, Cert.Attn.out_apply]
  unfold Cert.Attn.attnRow softmaxAvg
  refine Finset.sum_congr rfl fun k _ => ?_
  have el : lidx_main_v18 (ix3 b s e) k = ix3 b s k :=
    funext fun a => Fin.ext (by match a with | ⟨0, _⟩ => rfl | ⟨1, _⟩ => rfl | ⟨2, _⟩ => rfl)
  have er : ridx_main_v18 (ix3 b s e) k = ix3 b k e :=
    funext fun a => Fin.ext (by match a with | ⟨0, _⟩ => rfl | ⟨1, _⟩ => rfl | ⟨2, _⟩ => rfl)
  rw [el, er, v2_at, val_main_v17_apply]
  show Ideal.div (val_main_v13 (F := Ideal) x0 x1 x2 (ix3 b s k)) (val_main_v16 (F := Ideal) x0 x1 x2 (ix3 b s k)) * _ = _
  rw [v13_at, v16_at]

end Cert.ReferenceIdeal.RefValue

end
-- ==== Proof.lean ====
/-
  A fused single-head attention kernel against its plain reference, over the extended reals.

  Both programs take x [8, 2048, 256] and three weight matrices [256, 256] and return, at (b, s, e), the
  softmax-weighted average over the 2048 keys k of batch b of the value projection (x[b, k] · Wv)[e], the score of key k
  being the inner product of (x[b, s] · Wq) with (x[b, k] · Wk) times 1/16, each row's weights normalised after
  subtracting the row's maximum score (`Cert.Attn.out`).

  The kernel walks a grid of 16 points, two query tiles of 1024 rows per batch; at a batch's first tile it stores the
  key and value projections of the whole batch in two scratch buffers and reuses them at the second tile, so every
  output block is the block of that one whole-array function, and the blocks tile the result. The reference computes
  the same sums with batched products; it divides the scores by the square root of 256 where the kernel multiplies by
  the word of 1/16, and takes one further maximum with -∞: on the extended reals the quotient by 16 is the product with
  1/16 and -∞ is the identity of max, so the two results are equal entry by entry, for all extended-real inputs. The
  changes of float format inside the kernel are the identity here, and the order of a sum does not matter.
-/
import proofs.«150655_j79534204387962_2_alg».proof.Defs
import proofs.«150655_j79534204387962_2_alg».proof.Proof.Gen.Kernel
import proofs.«150655_j79534204387962_2_alg».proof.Proof.Gen.Kernel.Skeleton
import proofs.«150655_j79534204387962_2_alg».proof.Proof.Gen.Kernel.Launch
import proofs.«150655_j79534204387962_2_alg».proof.Proof.Gen.Kernel.Points
import proofs.«150655_j79534204387962_2_alg».proof.Proof.Gen.Kernel.Frame
import proofs.«150655_j79534204387962_2_alg».proof.Proof.Gen.KernelIdeal
import proofs.«150655_j79534204387962_2_alg».proof.Proof.Gen.KernelIdeal.Skeleton
import proofs.«150655_j79534204387962_2_alg».proof.Proof.Gen.KernelIdeal.Launch
import proofs.«150655_j79534204387962_2_alg».proof.Proof.Gen.KernelIdeal.Points
import proofs.«150655_j79534204387962_2_alg».proof.Proof.Gen.KernelIdeal.Frame
import proofs.«150655_j79534204387962_2_alg».proof.Proof.Gen.ReferenceIdeal
import proofs.«150655_j79534204387962_2_alg».proof.Proof.Gen.Pre_finite_inputs
import proofs.«150655_j79534204387962_2_alg».proof.Proof.Gen.KernelIdeal.Value
import proofs.«150655_j79534204387962_2_alg».proof.Proof.Gen.ReferenceIdeal.Run
import proofs.«150655_j79534204387962_2_alg».proof.Proof.Gen.ReferenceIdeal.Read
import proofs.«150655_j79534204387962_2_alg».proof.Proof.PointVal
import proofs.«150655_j79534204387962_2_alg».proof.Proof.RefVal
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the result array at the attention of the
    arguments: the kernel by its run read block by block, the reference by its operations read index by index. -/
theorem algebraic : Cert.algebraic_KernelIdeal_ReferenceIdeal := by
  intro m ρ m' ρ' _ hagree
  refine ⟨fun c => Cert.KernelIdeal.AttnRun.G m c, Cert.KernelIdeal.AttnRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
